-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x512 .f32) (main_arg1 : FVec F S1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x512 : Shape := ⟨2, ![512, 512]⟩
abbrev S1024x512 : Shape := ⟨2, ![1024, 512]⟩
abbrev S128x512 : Shape := ⟨2, ![128, 512]⟩
abbrev S512x128 : Shape := ⟨2, ![512, 128]⟩
abbrev S128x128 : Shape := ⟨2, ![128, 128]⟩
abbrev S1x128x128 : Shape := ⟨3, ![1, 128, 128]⟩
abbrev S128x128x1 : Shape := ⟨3, ![128, 128, 1]⟩
abbrev S128x128x128 : Shape := ⟨3, ![128, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x512, .f32⟩
  | .hbm, ⟨3, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  v7
def k0_off1 (k0_t1 : Fin k0_t1_loop.trips) : Fin 2 → Nat :=
  let c0_3 : Index := 0#32
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  let v8 : BitVec 32 := v7
  let v9 : Index := Scalar.indexCast v8
  ![0, v9.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v7 : BitVec 32 := Scalar.muli arg5 c128_i32
  let v8 : BitVec 32 := v7
  let v11 : Index := Scalar.indexCast v8
  let c0_4 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S512x512_S512x512_1_0 : S512x512.Transposes [1, 0] S512x512
  h_S128x128 : 0 < S128x128.numel
  shapeCasts_S128x128_S128x128 : S128x128.ShapeCasts S128x128
  shapeCasts_S128x128_S1x128x128 : S128x128.ShapeCasts S1x128x128
  shapeCasts_S128x128_S128x128x1 : S128x128.ShapeCasts S128x128x1
  broadcasts_S1x128x128_S128x128x128 : S1x128x128.Broadcasts S128x128x128
  broadcasts_S128x128x1_S128x128x128 : S128x128x1.Broadcasts S128x128x128
  reduces_S128x128x128_S128x128 : S128x128x128.Reduces [1] S128x128
  inb_S128x128_S128x128_0_0 : ∀ a, (![0, 0] : Fin 2 → Nat) a + S128x128.size a ≤ S128x128.size a
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x512.size a
  k0_off2_inb : ∀ k0_t1 : Fin k0_t1_loop.trips, ∀ a, (k0_off2 k0_t1) a + S128x128.size a ≤ S512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x512.size a
  hwx0_1 : ∀ i : grid0.Coords, EltTy.bits .f32 = 32 ∨ (Rect.block (s := S512x512) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x512.size a
  hwx0_2 : ∀ i : grid0.Coords, EltTy.bits .f32 = 32 ∨ (Rect.block (s := S1024x512) S128x128.size (cc0_transform_2 i) (hinb0_2 i)).WholeWords (EltTy.packing .f32)

variable [Facts₀]

abbrev win0_0 : Pipeline.Window sig grid0 :=
  Pipeline.Window.ofSpec (Memref.whole main_arg1) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S1x512x512 : Shape := ⟨3, ![1, 512, 512]⟩
abbrev S1024x1x512 : Shape := ⟨3, ![1024, 1, 512]⟩
abbrev S1024x512x512 : Shape := ⟨3, ![1024, 512, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1x512x512, .f32⟩
  | .hbm, ⟨3, _⟩ => ⟨S1024x1x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512x512, .f32⟩
  | .hbm, ⟨9, _⟩ => ⟨S1024x512x512, .f32⟩
  | .hbm, ⟨10, _⟩ => ⟨S1024x512x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  bcast_S_S1024x512x512 : S_.BroadcastsInDim S1024x512x512 (![] : Fin 0 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.Accum.lean ====
/-
  The order-similarity tile kernel keeps one row tile of `vis` (128 rows, all 512 features) and one column tile of the
  transposed `lab` (all 512 features, 128 columns) resident, and walks the feature axis in four chunks of 128 features.
  Each trip loads the chunk's 128 columns of the `vis` tile and the chunk's 128 rows of the `lab` tile, and adds to the
  carried 128 × 128 accumulator the chunk's sum of squared positive parts. This module names those two loads and the
  accumulator after `n` trips as pure functions of the two resident tiles, at any float instance.
-/
import proofs.«137814_j15899968930480_2_alg».proof.Proof.Gen.KernelIdeal.Skeleton
import Idealize.ShloMosaic.Lib.Pipeline.FrameBody

noncomputable section

namespace Cert.OrderScore

open Cert.KernelIdeal Cert.KernelIdeal.Gen Idealize.ShloMosaic

variable {F : FTy → Type} [FloatOps F]

/-- Features `128 k … 128 k + 127` of every row of the resident `vis` tile: what trip `k` loads from it. -/
def visChunk (x0 : Vec F S128x512 .f32) (k : Fin k0_t1_loop.trips) : Vec F S128x128 .f32 :=
  View.ld x0 (Rect.unit (s := S128x512) (k0_off1 k) S128x128.size (Gen.k0_off1_inb k))

/-- Features `128 k … 128 k + 127` (rows of the transposed tile) of every column of the resident `lab` tile: what trip
    `k` loads from it. -/
def labChunk (x1 : Vec F S512x128 .f32) (k : Fin k0_t1_loop.trips) : Vec F S128x128 .f32 :=
  View.ld x1 (Rect.unit (s := S512x128) (k0_off2 k) S128x128.size (Gen.k0_off2_inb k))

/-- The accumulator after the first `n` trips: the zero tile, then one chunk's contribution per trip (past the last
    trip nothing more is added). -/
def accAfter (x0 : Vec F S128x512 .f32) (x1 : Vec F S512x128 .f32) : ℕ → FVec F S128x128 .f32
  | 0 => k0_pay1
  | n + 1 =>
    if h : n < k0_t1_loop.trips then k0_pay2 (accAfter x0 x1 n) (visChunk x0 ⟨n, h⟩) (labChunk x1 ⟨n, h⟩)
    else accAfter x0 x1 n

theorem accAfter_zero (x0 : Vec F S128x512 .f32) (x1 : Vec F S512x128 .f32) : accAfter x0 x1 0 = k0_pay1 := rfl

theorem accAfter_succ (x0 : Vec F S128x512 .f32) (x1 : Vec F S512x128 .f32) (n : ℕ) (h : n < k0_t1_loop.trips) :
    accAfter x0 x1 (n + 1) = k0_pay2 (accAfter x0 x1 n) (visChunk x0 ⟨n, h⟩) (labChunk x1 ⟨n, h⟩) := by
  rw [accAfter, dif_pos h]

end Cert.OrderScore

end
-- ==== Proof.Trips.lean ====
/-
  What the kernel body leaves in its output tile, as a pure function of the two resident input tiles, at any float
  instance. The body's run carries the accumulator through the four trips by a recursion on the trips' results; here
  that recursion is identified, trip by trip, with the pure accumulator `accAfter`: one trip's result is the trip's
  arithmetic applied to the carried tile and the two chunks it loads, and the tile stored at the end is the final
  arithmetic (square root, then negation) of the accumulator after all trips.
-/
import proofs.«137814_j15899968930480_2_alg».proof.Proof.Gen.KernelIdeal.Frame
import proofs.«137814_j15899968930480_2_alg».proof.Proof.Accum
import Idealize.ShloMosaic.Lib.Pipeline.Value

set_option maxRecDepth 16384

noncomputable section

namespace Cert.OrderScore

open Cert.KernelIdeal Cert.KernelIdeal.Gen Idealize.ShloMosaic Idealize.ShloMosaic.TcCoe Idealize.SL.Sem

variable {F : FTy → Type} [FloatOps F]

/-- One trip: with the two staging buffers held at contents that read `x0` and `x1`, trip `k` turns the carried tile
    `acc` into the trip's arithmetic of `acc` and the two chunks. -/
theorem tripR_eq (𝒱 : Variants) (c : Dev nD) (bd : Option 𝒱.V) (i : grid0.Coords)
    (arg2 : Memref sig .tc .vmem S128x512 .f32) (harg2 : arg2.IsWhole) (arg3 : Memref sig .tc .vmem S512x128 .f32) (harg3 : arg3.IsWhole)
    (arg4 : Memref sig .tc .vmem S128x128 .f32) (harg4 : arg4.IsWhole)
    (x0 : Vec F S128x512 .f32) (x1 : Vec F S512x128 .f32) (k : Fin k0_t1_loop.trips) (acc : FVec F S128x128 .f32) :
    tripR_k0_t1 (F := F) 𝒱 c bd i arg2 harg2 arg3 harg3 arg4 harg4 (harg2.unread x0) (harg3.unread x1) k acc
      = k0_pay2 acc (visChunk x0 k) (labChunk x1 k) := by
  unfold tripR_k0_t1 trip_k0_t1
  dsimp only
  unfold visChunk labChunk
  rw [View.readAt_eq_ld, View.readAt_eq_ld, harg2.read_unread, harg3.read_unread]

/-- The carried tile before trip `n` is the pure accumulator after `n` trips. -/
theorem st_eq (c : Dev nD) (i : grid0.Coords)
    (arg2 : Memref sig .tc .vmem S128x512 .f32) (harg2 : arg2.IsWhole) (arg3 : Memref sig .tc .vmem S512x128 .f32) (harg3 : arg3.IsWhole)
    (arg4 : Memref sig .tc .vmem S128x128 .f32) (harg4 : arg4.IsWhole)
    (x0 : Vec F S128x512 .f32) (x1 : Vec F S512x128 .f32) : ∀ n : ℕ,
    st_k0_t1 (F := F) Variants.none c none i arg2 harg2 arg3 harg3 arg4 harg4 (harg2.unread x0) (harg3.unread x1) k0_pay1 n
      = accAfter x0 x1 n
  | 0 => rfl
  | n + 1 => by
    rw [st_k0_t1.eq_2, accAfter]
    unfold st_k0_t1Step
    by_cases h : n < k0_t1_loop.trips
    · rw [dif_pos h, dif_pos h, tripR_eq, st_eq c i arg2 harg2 arg3 harg3 arg4 harg4 x0 x1 n]
    · rw [dif_neg h, dif_neg h]; exact st_eq c i arg2 harg2 arg3 harg3 arg4 harg4 x0 x1 n

theorem zero_off2 : (![0, 0] : Fin 2 → Nat) = fun _ => 0 :=
  funext fun a => by match a with | ⟨0, _⟩ => rfl | ⟨1, _⟩ => rfl

/-- The output tile after the body: the final arithmetic of the accumulator after all trips. -/
theorem out_eq (c : Dev nD) (i : grid0.Coords)
    (arg2 : Memref sig .tc .vmem S128x512 .f32) (harg2 : arg2.IsWhole) (arg3 : Memref sig .tc .vmem S512x128 .f32) (harg3 : arg3.IsWhole)
    (arg4 : Memref sig .tc .vmem S128x128 .f32) (harg4 : arg4.IsWhole)
    (x0 : Vec F S128x512 .f32) (x1 : Vec F S512x128 .f32) :
    out0_A_2 (F := F) c i arg2 harg2 arg3 harg3 arg4 harg4 x0 x1 = k0_pay3 (accAfter x0 x1 k0_t1_loop.trips) := by
  unfold out0_A_2
  rw [View.read_writes_eq_canon _ _ _ (cover0_A_2 c i arg2 harg2 arg3 harg3 arg4 harg4 x0 x1)]
  unfold kernelRun0_A
  dsimp only
  rw [View.canon_unit_zero zero_off2]
  exact congrArg k0_pay3 (st_eq c i arg2 harg2 arg3 harg3 arg4 harg4 x0 x1 k0_t1_loop.trips)

end Cert.OrderScore

end
-- ==== Proof.Spec.lean ====
/-
  The order-similarity score, as one function of the two argument arrays over the extended reals:

      score lab vis (n, m) = − √( Σ_{k < 512} max (lab (m, k) − vis (n, k), 0)² ),   n < 1024, m < 512.

  Both programs compute this function. They differ only in how the sum over the 512 features is grouped: the reference
  adds all 512 terms in one reduction, the kernel adds them chunk by chunk, four chunks of 128 consecutive features.
  Addition of extended reals is commutative and associative (a commutative monoid; the conventions at the infinities do
  not disturb that), so the two groupings agree with no assumption on the terms: `sum_chunks`.
-/
import Idealize.ShloMosaic.Lib.ValueIdx
import Idealize.ShloMosaic.PureOps.Ideal.Laws

noncomputable section

namespace Cert.OrderScore

open Idealize.ShloMosaic Idealize.ShloMosaic.ValueIdx

/-- The squared positive part of `a − b`. -/
def hingeSq (a b : EReal) : EReal := max (a - b) 0 * max (a - b) 0

/-- The score of visual vector `n` against label vector `m`. -/
def scoreAt (lab : (⟨2, ![512, 512]⟩ : Shape).Idx → EReal) (vis : (⟨2, ![1024, 512]⟩ : Shape).Idx → EReal)
    (n : Fin 1024) (m : Fin 512) : EReal :=
  -(Ideal.sqrt (∑ k : Fin 512, hingeSq (lab (ix2 m k)) (vis (ix2 n k))))

/-- The whole 1024 × 512 array of scores. -/
def score (lab : (⟨2, ![512, 512]⟩ : Shape).Idx → EReal) (vis : (⟨2, ![1024, 512]⟩ : Shape).Idx → EReal) :
    (⟨2, ![1024, 512]⟩ : Shape).Idx → EReal :=
  fun i => scoreAt lab vis ⟨(i 0).val, (i 0).isLt⟩ ⟨(i 1).val, (i 1).isLt⟩

theorem score_ix2 (lab : (⟨2, ![512, 512]⟩ : Shape).Idx → EReal) (vis : (⟨2, ![1024, 512]⟩ : Shape).Idx → EReal)
    (n : Fin 1024) (m : Fin 512) : score lab vis (ix2 n m) = scoreAt lab vis n m := rfl

/-- Feature `128 j + d`, the `d`-th feature of chunk `j`. (Read modulo 512 so that it is a feature for every natural
    `j`; for the four chunks `j < 4` nothing is reduced: `feat_val`.) -/
def feat (j : ℕ) (d : Fin 128) : Fin 512 := ⟨(128 * j + d.val) % 512, Nat.mod_lt _ (by decide)⟩

theorem feat_val (j : ℕ) (hj : j < 4) (d : Fin 128) : (feat j d).val = 128 * j + d.val :=
  Nat.mod_eq_of_lt (by have := d.isLt; omega)

/-- A sum over the 512 features is the sum, over the four chunks, of each chunk's 128 terms. -/
theorem sum_chunks {M : Type*} [AddCommMonoid M] (f : Fin 512 → M) :
    ∑ k : Fin 512, f k = ∑ j ∈ Finset.range 4, ∑ d : Fin 128, f (feat j d) := by
  have e : ∑ p : Fin 4 × Fin 128, f (feat p.1.val p.2) = ∑ k : Fin 512, f k :=
    Fintype.sum_equiv (finProdFinEquiv : Fin 4 × Fin 128 ≃ Fin 512) _ _ (fun p => congrArg f (Fin.ext (by
      rw [feat_val p.1.val p.1.isLt, finProdFinEquiv_apply_val]; omega)))
  rw [← e, Fintype.sum_prod_type, Finset.sum_range]

end Cert.OrderScore

end
-- ==== Proof.Tile.lean ====
/-
  The kernel body's arithmetic over the extended reals, read entry by entry. With `x0` the resident 128 × 512 tile of
  `vis` and `x1` the resident 512 × 128 tile of the transposed `lab`:

  * one trip adds, at entry `(p, q)`, the sum over the chunk's 128 features `d` of the squared positive part of
    `x1 (d, q) − x0 (p, d)`: the `lab` chunk is placed on the last two axes and the `vis` chunk on the first two axes
    of a 128 × 128 × 128 difference, which is reduced over its middle axis;
  * trip `k` loads features `128 k … 128 k + 127`;
  * so after `n` trips the accumulator holds the sum over the first `n` chunks, and after all four — by the regrouping
    law `sum_chunks` — the sum over all 512 features; the stored tile is `0 − √·` of that, the negated square root.
-/
import proofs.«137814_j15899968930480_2_alg».proof.Proof.Accum
import proofs.«137814_j15899968930480_2_alg».proof.Proof.Spec
import Idealize.ShloMosaic.Lib.ValueLayout
import Idealize.ShloMosaic.Lib.Pipeline.Value

noncomputable section

namespace Cert.OrderScore

open Cert.KernelIdeal Cert.KernelIdeal.Gen Idealize.ShloMosaic Idealize.ShloMosaic.ValueIdx

/-! ## Layout operations of the trip, read at an index -/

/-- A `[1, 128, 128]` array broadcast along a new leading axis of 128 reads its operand at the last two coordinates. -/
theorem bcast_lead (x : (⟨3, ![1, 128, 128]⟩ : Shape).Idx → EReal)
    (h : (⟨3, ![1, 128, 128]⟩ : Shape).Broadcasts ⟨3, ![128, 128, 128]⟩) (p d q : Fin 128) :
    broadcastTo ⟨3, ![128, 128, 128]⟩ x h (ix3 p d q) = x (ix3 (0 : Fin 1) d q) :=
  broadcastTo_apply x h _ _ fun a => by match a with | ⟨0, _⟩ => rfl | ⟨1, _⟩ => rfl | ⟨2, _⟩ => rfl

/-- A `[128, 128, 1]` array broadcast along its trailing unit axis reads its operand at the first two coordinates. -/
theorem bcast_trail (x : (⟨3, ![128, 128, 1]⟩ : Shape).Idx → EReal)
    (h : (⟨3, ![128, 128, 1]⟩ : Shape).Broadcasts ⟨3, ![128, 128, 128]⟩) (p d q : Fin 128) :
    broadcastTo ⟨3, ![128, 128, 128]⟩ x h (ix3 p d q) = x (ix3 p d (0 : Fin 1)) :=
  broadcastTo_apply x h _ _ fun a => by match a with | ⟨0, _⟩ => rfl | ⟨1, _⟩ => rfl | ⟨2, _⟩ => rfl

/-- A `[128, 128]` array cast to `[128, 128, 1]` reads, at `(p, d, u)`, the operand at `(p, d)`. -/
theorem cast_trail (x : (⟨2, ![128, 128]⟩ : Shape).Idx → EReal)
    (h : (⟨2, ![128, 128]⟩ : Shape).ShapeCasts ⟨3, ![128, 128, 1]⟩) (p d : Fin 128) (u : Fin 1) :
    shapeCast ⟨3, ![128, 128, 1]⟩ x h (ix3 p d u) = x (ix2 p d) :=
  shapeCast_apply x h _ _ (by
    have hu : u.val = 0 := by omega
    rw [Shape.rowMajor_val_three, Shape.rowMajor_val_two]
    show p.val * 128 + d.val = (p.val * 128 + d.val) * 1 + u.val
    rw [hu, Nat.mul_one, Nat.add_zero])

/-! ## The three payloads -/

/-- The accumulator starts at zero. -/
theorem pay1_apply (p q : Fin 128) : k0_pay1 (F := Ideal) (ix2 p q) = 0 := by
  unfold k0_pay1
  exact Ideal.ofBits_zero_f32

/-- One trip's arithmetic at `(p, q)`: the carried entry plus the chunk's sum of squared positive parts. -/
theorem pay2_apply (acc : FVec Ideal S128x128 .f32) (v10 v12 : Vec Ideal S128x128 .f32) (p q : Fin 128) :
    k0_pay2 acc v10 v12 (ix2 p q) = acc (ix2 p q) + ∑ d : Fin 128, hingeSq (v12 (ix2 d q)) (v10 (ix2 p d)) := by
  unfold k0_pay2
  refine congrArg (acc (ix2 p q) + ·) ?_
  refine (Ideal.multiReduction_add_single _ _ Gen.reduces_S128x128x128_S128x128 _ _ (ix2 p q)).trans ?_
  refine Finset.sum_congr rfl fun (d : Fin 128) _ => ?_
  have hl : Gen.reduces_S128x128x128_S128x128.lift (ix2 p q) d = ix3 p d q :=
    funext fun a => Fin.ext (by match a with | ⟨0, _⟩ => rfl | ⟨1, _⟩ => rfl | ⟨2, _⟩ => rfl)
  rw [hl]
  show max (broadcastTo S128x128x128 _ _ (ix3 p d q) - broadcastTo S128x128x128 _ _ (ix3 p d q)) (Ideal.ofBits .f32 0x00000000#32)
      * max (broadcastTo S128x128x128 _ _ (ix3 p d q) - broadcastTo S128x128x128 _ _ (ix3 p d q)) (Ideal.ofBits .f32 0x00000000#32) = _
  rw [bcast_lead, bcast_trail, shapeCast_ab_1ab_apply, cast_trail, shapeCast_self, Ideal.ofBits_zero_f32]
  rfl

/-- The final arithmetic at `(p, q)`: `0 − √·`, the negated square root. -/
theorem pay3_apply (v2 : FVec Ideal S128x128 .f32) (p q : Fin 128) :
    k0_pay3 v2 (ix2 p q) = -(Ideal.sqrt (v2 (ix2 p q))) := by
  unfold k0_pay3
  show Ideal.ofBits .f32 0x00000000#32 - Ideal.sqrt (v2 (ix2 p q)) = _
  rw [Ideal.ofBits_zero_f32, zero_sub]

/-! ## The chunks a trip loads -/

theorem trips_le (k : Fin k0_t1_loop.trips) : k.val < 4 := Nat.lt_of_lt_of_le k.isLt Gen.k0_t1_abs.2.1

/-- Trip `k`'s chunk of the `vis` tile: row `p`, feature `128 k + d`. -/
theorem visChunk_apply (x0 : Vec Ideal S128x512 .f32) (k : Fin k0_t1_loop.trips) (p d : Fin 128) :
    visChunk x0 k (ix2 p d) = x0 (ix2 p (feat k.val d)) := by
  unfold visChunk
  refine congrArg x0 (funext fun a => Fin.ext ?_)
  show (k0_off1 k) a + 1 * ((ix2 p d) a).val = ((ix2 p (feat k.val d)) a).val
  rw [Gen.k0_off1_eq k]
  match a with
  | ⟨0, _⟩ => show 0 + 1 * p.val = p.val; omega
  | ⟨1, _⟩ => show 128 * k.val + 1 * d.val = (feat k.val d).val; rw [feat_val k.val (trips_le k)]; omega

/-- Trip `k`'s chunk of the transposed `lab` tile: feature `128 k + d`, column `q`. -/
theorem labChunk_apply (x1 : Vec Ideal S512x128 .f32) (k : Fin k0_t1_loop.trips) (d q : Fin 128) :
    labChunk x1 k (ix2 d q) = x1 (ix2 (feat k.val d) q) := by
  unfold labChunk
  refine congrArg x1 (funext fun a => Fin.ext ?_)
  show (k0_off2 k) a + 1 * ((ix2 d q) a).val = ((ix2 (feat k.val d) q) a).val
  rw [Gen.k0_off2_eq k]
  match a with
  | ⟨0, _⟩ => show 128 * k.val + 1 * d.val = (feat k.val d).val; rw [feat_val k.val (trips_le k)]; omega
  | ⟨1, _⟩ => show 0 + 1 * q.val = q.val; omega

/-! ## The accumulator and the stored tile -/

/-- After `n` trips the accumulator holds, at `(p, q)`, the sum over the first `n` chunks. -/
theorem accAfter_apply (x0 : Vec Ideal S128x512 .f32) (x1 : Vec Ideal S512x128 .f32) (p q : Fin 128) :
    ∀ n : ℕ, n ≤ k0_t1_loop.trips → accAfter x0 x1 n (ix2 p q)
      = ∑ j ∈ Finset.range n, ∑ d : Fin 128, hingeSq (x1 (ix2 (feat j d) q)) (x0 (ix2 p (feat j d)))
  | 0, _ => by rw [accAfter_zero, pay1_apply, Finset.sum_range_zero]
  | n + 1, hn => by
    have h : n < k0_t1_loop.trips := hn
    rw [accAfter_succ x0 x1 n h, pay2_apply, accAfter_apply x0 x1 p q n (Nat.le_of_lt h), Finset.sum_range_succ]
    refine congrArg (_ + ·) (Finset.sum_congr rfl fun d _ => ?_)
    rw [visChunk_apply, labChunk_apply]

theorem trips_eq : k0_t1_loop.trips = 4 := by decide

/-- The stored tile at `(p, q)`: the negated square root of the sum over all 512 features. -/
theorem tile_apply (x0 : Vec Ideal S128x512 .f32) (x1 : Vec Ideal S512x128 .f32) (p q : Fin 128) :
    k0_pay3 (accAfter x0 x1 k0_t1_loop.trips) (ix2 p q)
      = -(Ideal.sqrt (∑ k : Fin 512, hingeSq (x1 (ix2 k q)) (x0 (ix2 p k)))) := by
  rw [pay3_apply, accAfter_apply x0 x1 p q _ (Nat.le_refl _), trips_eq,
    ← sum_chunks (fun k => hingeSq (x1 (ix2 k q)) (x0 (ix2 p k)))]

end Cert.OrderScore

end
-- ==== Proof.Blocks.lean ====
/-
  From tiles to the whole array. The grid has 8 × 4 points; point `(i, j)` is handed rows `128 i … 128 i + 127` of `vis`
  (all features) and columns `128 j … 128 j + 127` of the transposed `lab` (all features), and writes back the 128 × 128
  tile of the result at block `(i, j)`. The transposed array is what the host transpose before the call leaves:
  its entry `(k, m)` is `lab (m, k)`. So the tile entry `(p, q)` a point writes is the score of visual vector
  `128 i + p` against label vector `128 j + q`: every point writes the restriction of ONE whole-array function, the
  score, to its block; the 32 blocks tile the 1024 × 512 result, so after the run the result array is the score.
-/
import proofs.«137814_j15899968930480_2_alg».proof.Proof.Gen.KernelIdeal.Value
import proofs.«137814_j15899968930480_2_alg».proof.Proof.Trips
import proofs.«137814_j15899968930480_2_alg».proof.Proof.Tile
import Idealize.ShloMosaic.Lib.StableHlo.Run
import Idealize.ShloMosaic.Lib.ValueLayout

set_option maxRecDepth 16384

noncomputable section

namespace Cert.OrderScore

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The array the second window stages is the transpose of `lab` that the host operation before the call wrote. -/
theorem V_labT (c : Dev nD) :
    (V m c main_v0 : S512x512.Idx → EReal)
      = transpose S512x512 [1, 0] (m ((c : Thread nD τ).loc main_arg0)) Gen.transposes_S512x512_S512x512_1_0 := by
  dsimp only [Gen.V, Gen.hostOps0]; after_results

/-- The three index maps, decided over the 32 grid points: the `vis` window follows the output's row block and stays at
    feature block 0, the `lab` window stays at feature block 0 and follows the output's column block, and the output's
    block indices stay within the 8 × 4 blocks. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 3 :=
  (by decide +kernel : ∀ t : Fin grid0.N, _)

/-- Every one of the 8 × 4 output blocks is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The `vis` tile at point `t`: row `p` of the tile is row `128 i + p` of `vis`. -/
theorem vis_blk (c : Dev nD) (t : Fin cfg0.N) (p : Fin 128) (k : Fin 512) (n : Fin 1024)
    (hn : n.val = win0_2.index t (0 : Fin 2) * 128 + p.val) :
    iblk m c 0 t (ix2 p k) = (m ((c : Thread nD τ).loc main_arg1) : S1024x512.Idx → EReal) (ix2 n k) := by
  show V m c main_arg1 (((cfg0.win 0).blk t).view.emb (ix2 p k)) = _
  rw [V_main_arg1]
  refine congrArg _ (funext fun a => Fin.ext ?_)
  obtain ⟨e0, e1, e2, e3, b0, b1⟩ := idx_facts t
  match a with
  | ⟨0, _⟩ => show win0_0.index t (0 : Fin 2) * 128 + 1 * p.val = n.val; omega
  | ⟨1, _⟩ => show win0_0.index t (1 : Fin 2) * 512 + 1 * k.val = k.val; omega

/-- The `lab` tile at point `t`: column `q` of the tile is label vector `128 j + q`, row `k` its feature `k`. -/
theorem lab_blk (c : Dev nD) (t : Fin cfg0.N) (k : Fin 512) (q : Fin 128) (l : Fin 512)
    (hl : l.val = win0_2.index t (1 : Fin 2) * 128 + q.val) :
    iblk m c 1 t (ix2 k q) = (m ((c : Thread nD τ).loc main_arg0) : S512x512.Idx → EReal) (ix2 l k) := by
  show (V m c main_v0 : S512x512.Idx → EReal) (((cfg0.win 1).blk t).view.emb (ix2 k q)) = _
  obtain ⟨e0, e1, e2, e3, b0, b1⟩ := idx_facts t
  have hemb : ((cfg0.win 1).blk t).view.emb (ix2 k q) = ix2 k l := funext fun a => Fin.ext (by
    match a with
    | ⟨0, _⟩ => show win0_1.index t (0 : Fin 2) * 512 + 1 * k.val = k.val; omega
    | ⟨1, _⟩ => show win0_1.index t (1 : Fin 2) * 128 + 1 * q.val = l.val; omega)
  rw [hemb, V_labT]
  exact transpose_ix2_apply _ _ k l

/-- What point `t` writes back is block `t` of the score of the two argument arrays. -/
theorem flushed_eq (c : Dev nD) (t : Fin cfg0.N) :
    (dats m 0 c).flushed 2 t = ((cfg0.win 2).blk t).view.read (Elt Ideal)
      (score (m ((c : Thread nD τ).loc main_arg0)) (m ((c : Thread nD τ).loc main_arg1))) := by
  rw [Value.flushed2_A, out_eq]
  funext j
  obtain ⟨p, q, rfl⟩ : ∃ (p q : Fin 128), j = ix2 p q := ⟨j 0, j 1, eq_ix2 j⟩
  obtain ⟨e0, e1, e2, e3, b0, b1⟩ := idx_facts t
  have hp := p.isLt
  have hq := q.isLt
  obtain ⟨n, hn⟩ : ∃ n : Fin 1024, n.val = win0_2.index t (0 : Fin 2) * 128 + p.val := ⟨⟨_, by omega⟩, rfl⟩
  obtain ⟨l, hl⟩ : ∃ l : Fin 512, l.val = win0_2.index t (1 : Fin 2) * 128 + q.val := ⟨⟨_, by omega⟩, rfl⟩
  have hemb : ((cfg0.win 2).blk t).view.emb (ix2 p q) = ix2 n l := funext fun a => Fin.ext (by
    match a with
    | ⟨0, _⟩ => show win0_2.index t (0 : Fin 2) * 128 + 1 * p.val = n.val; omega
    | ⟨1, _⟩ => show win0_2.index t (1 : Fin 2) * 128 + 1 * q.val = l.val; omega)
  show k0_pay3 (accAfter (iblk m c 0 t) (iblk m c 1 t) k0_t1_loop.trips) (ix2 p q)
    = score (m ((c : Thread nD τ).loc main_arg0)) (m ((c : Thread nD τ).loc main_arg1)) (((cfg0.win 2).blk t).view.emb (ix2 p q))
  rw [hemb, score_ix2]
  refine (tile_apply (iblk m c 0 t) (iblk m c 1 t) p q).trans ?_
  unfold scoreAt
  refine congrArg (fun s => -(Ideal.sqrt s)) (Finset.sum_congr rfl fun k _ => ?_)
  rw [vis_blk m c t p k n hn, lab_blk m c t k q l hl]

/-- An index of the result is in point `t`'s block iff each coordinate is in the block's range on its axis. -/
theorem mem_blk (t : Fin cfg0.N) (i : S1024x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v1).slice (win0_2.rect t)).set ↔ _
  rw [View.set_slice_whole, Rect.mem_set_unit]
  exact Iff.rfl

/-- The blocks tile the result: entry `(r, s)` lies in the block of the point at `(r / 128, s / 128)`. -/
theorem cover (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- After the run the result array is the score of the two argument arrays. -/
theorem final (c : Dev nD) :
    (dats m 0 c).arrAt 2 cfg0.N = score (m ((c : Thread nD τ).loc main_arg0)) (m ((c : Thread nD τ).loc main_arg1)) :=
  (dats m 0 c).arrAt_eq_of_cover 2 _ (fun t _ => flushed_eq m c t) cover

/-- The kernel's run: every weakly fair execution terminates with the result array at the score of the argument arrays,
    the arguments unchanged. -/
theorem run : θ_run defs (onTc (τ := τ) (main (F := Ideal))) ⟨m, fun _ => 0, ρ⟩ fun r => ∀ c : Dev nD,
      r.2.mem ((c : Thread nD τ).loc main_v1)
        = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.OrderScore

end
-- ==== Proof.RefScore.lean ====
/-
  The reference computes the score. Read one stage at a time, its result at `(n, m)` is the negated square root of the
  zero initial value plus the sum over `k < 512` of the square of `max (lab (m, k) − vis (n, k), 0)`: the two broadcasts
  place `lab` on the last two axes and `vis` on the first and last axes of the 1024 × 512 × 512 difference, `relu` is the
  maximum with a broadcast zero, and the reduction runs over the last axis.
-/
import proofs.«137814_j15899968930480_2_alg».proof.Proof.Gen.ReferenceIdeal.Read
import proofs.«137814_j15899968930480_2_alg».proof.Proof.Spec

noncomputable section

namespace Cert.OrderScore

open Cert.ReferenceIdeal Cert.ReferenceIdeal.Read Idealize.ShloMosaic Idealize.ShloMosaic.ValueIdx

/-- The reference's result, as a function of its two argument arrays, is the score. -/
theorem ref_eq (x0 : (⟨S512x512, .f32⟩ : BufTy).Contents (Elt Ideal)) (x1 : (⟨S1024x512, .f32⟩ : BufTy).Contents (Elt Ideal)) :
    val_main_v9 (F := Ideal) x0 x1 = score x0 x1 := by
  funext i
  obtain ⟨n, m, rfl⟩ : ∃ (n : Fin 1024) (m : Fin 512), i = ix2 n m := ⟨i 0, i 1, eq_ix2 i⟩
  have e0 : ∀ k : Fin 512, idx_main_v0 (idx_main_v2 (idx_main_v7 (ix2 n m) k)) = ix2 m k := fun k =>
    funext fun a => Fin.ext (by match a with | ⟨0, _⟩ => rfl | ⟨1, _⟩ => rfl)
  have e1 : ∀ k : Fin 512, idx_main_v1 (idx_main_v3 (idx_main_v7 (ix2 n m) k)) = ix2 n k := fun k =>
    funext fun a => Fin.ext (by match a with | ⟨0, _⟩ => rfl | ⟨1, _⟩ => rfl)
  rw [score_ix2, val_main_v9_apply, val_main_v8_apply, val_main_v7_apply]
  unfold scoreAt hingeSq
  simp only [val_main_cst_apply, val_main_v6_apply, val_main_v5_apply, val_main_v4_apply, val_main_v2_apply,
    val_main_v0_apply, val_main_v3_apply, val_main_v1_apply, val_main_call0_v0_apply, val_main_call0_cst_apply,
    e0, e1, Ideal.hostNegf_def, Ideal.negf_def, Ideal.hostUnary_sqrt_def, Ideal.ofBits_def, Ideal.ofBits_zero_f32,
    zero_add, Ideal.mulf_def, Ideal.maximumf_def, Ideal.subf_def]

end Cert.OrderScore

end
-- ==== Proof.lean ====
/-
  Order similarity: `score (n, m) = − ‖ max (lab m − vis n, 0) ‖₂` for 1024 visual vectors `vis n` and 512 label vectors
  `lab m` of 512 features each, computed by a tiled kernel and by a plain broadcast-and-reduce reference. Read over the
  extended reals both programs compute the same function of the two argument arrays,

      score (n, m) = − √( Σ_{k < 512} max (lab (m, k) − vis (n, k), 0)² )          (Proof/Spec.lean).

  * The reference forms the 1024 × 512 × 512 array of differences, takes the maximum with zero, squares, sums the last
    axis from a zero initial value, takes the square root and negates: the score, stage by stage (Proof/RefScore.lean).
  * The kernel transposes `lab` on the host, then on an 8 × 4 grid keeps a 128-row tile of `vis` and a 128-column tile of
    the transposed `lab` resident and walks the 512 features in four chunks of 128, adding each chunk's sum of squared
    positive parts to a carried 128 × 128 accumulator that starts at zero; it stores `0 − √` of the accumulator. The
    accumulator after the trips is a recursion on the trips (Proof/Accum.lean), which the body's run follows trip by trip
    (Proof/Trips.lean); entry by entry it is the sum over the chunks walked so far, and after all four the sum over all
    512 features, because addition of extended reals is commutative and associative whatever the terms are — so no
    finiteness of the inputs is used — and `0 − x = − x` (Proof/Tile.lean). Each grid point therefore writes the block
    of the score at its block index, and the 32 blocks tile the result (Proof/Blocks.lean).

  The three programs terminate without fault and leave their arguments as they were; the idealized kernel is the
  kernel's own text read over the extended reals (nothing was rewritten), and the two idealized programs end with equal
  results.
-/
import proofs.«137814_j15899968930480_2_alg».proof.Defs
import proofs.«137814_j15899968930480_2_alg».proof.Proof.Gen.Kernel
import proofs.«137814_j15899968930480_2_alg».proof.Proof.Gen.Kernel.Frame
import proofs.«137814_j15899968930480_2_alg».proof.Proof.Gen.KernelIdeal
import proofs.«137814_j15899968930480_2_alg».proof.Proof.Gen.KernelIdeal.Frame
import proofs.«137814_j15899968930480_2_alg».proof.Proof.Gen.KernelIdeal.Value
import proofs.«137814_j15899968930480_2_alg».proof.Proof.Gen.ReferenceIdeal
import proofs.«137814_j15899968930480_2_alg».proof.Proof.Gen.ReferenceIdeal.Run
import proofs.«137814_j15899968930480_2_alg».proof.Proof.Gen.ReferenceIdeal.Read
import proofs.«137814_j15899968930480_2_alg».proof.Proof.Gen.Pre_finite_inputs
import proofs.«137814_j15899968930480_2_alg».proof.Proof.Blocks
import proofs.«137814_j15899968930480_2_alg».proof.Proof.RefScore
import Idealize.ShloMosaic.Adequacy
import Idealize.ShloMosaic.Init

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories agreeing on `lab` and `vis`, the kernel and the reference both end with the score of those arrays. -/
theorem algebraic : Cert.algebraic_KernelIdeal_ReferenceIdeal := by
  intro m ρ m' ρ' _ hagree
  refine ⟨fun c => Cert.OrderScore.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.OrderScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.OrderScore.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
